-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x96x32x32 : Shape := ⟨4, ![128, 96, 32, 32]⟩
abbrev S32x96 : Shape := ⟨2, ![32, 96]⟩
abbrev S_ : Shape := ⟨0, ![]⟩

class Facts : Prop where
  bcast_S_S128x96x32x32 : S_.BroadcastsInDim S128x96x32x32 (![] : Fin 0 → Fin S128x96x32x32.rank)
  reducesTo_S128x96x32x32_S_d0_1_2_3 : S128x96x32x32.ReducesTo [0, 1, 2, 3] S_
  h_S_ : 0 < S_.numel
  bcast_S_S32x96 : S_.BroadcastsInDim S32x96 (![] : Fin 0 → Fin S32x96.rank)
  reducesTo_S32x96_S_d0_1 : S32x96.ReducesTo [0, 1] S_

variable [Facts]

def fn {F : FTy → Type} [FloatOps F] (main_arg0 : FVec F S128x96x32x32 .f32) (main_arg1 : FVec F S32x96 .f32) (main_arg2 : FVec F S32x96 .f32) : IVec S_ 1 :=
  let main_v0 : FVec F S128x96x32x32 .f32 := Host.absf main_arg0
  let main_cst : FVec F S_ .f32 := constant S_ .f32 0x7F800000#32
  let main_v1 : FVec F S128x96x32x32 .f32 := broadcastInDim S128x96x32x32 ![] bcast_S_S128x96x32x32 main_cst
  let main_v2 : IVec S128x96x32x32 1 := cmpf .olt main_v0 main_v1
  let main_c : IVec S_ 1 := constantI S_ 1 1#1
  let main_v3 : IVec S_ 1 := (fun x v => Host.reduce IntOp.andi x v reducesTo_S128x96x32x32_S_d0_1_2_3 h_S_) main_v2 main_c
  let main_v4 : FVec F S32x96 .f32 := Host.absf main_arg1
  let main_cst_0 : FVec F S_ .f32 := constant S_ .f32 0x7F800000#32
  let main_v5 : FVec F S32x96 .f32 := broadcastInDim S32x96 ![] bcast_S_S32x96 main_cst_0
  let main_v6 : IVec S32x96 1 := cmpf .olt main_v4 main_v5
  let main_c_1 : IVec S_ 1 := constantI S_ 1 1#1
  let main_v7 : IVec S_ 1 := (fun x v => Host.reduce IntOp.andi x v reducesTo_S32x96_S_d0_1 h_S_) main_v6 main_c_1
  let main_v8 : IVec S_ 1 := andi main_v3 main_v7
  let main_v9 : FVec F S32x96 .f32 := Host.absf main_arg2
  let main_cst_2 : FVec F S_ .f32 := constant S_ .f32 0x7F800000#32
  let main_v10 : FVec F S32x96 .f32 := broadcastInDim S32x96 ![] bcast_S_S32x96 main_cst_2
  let main_v11 : IVec S32x96 1 := cmpf .olt main_v9 main_v10
  let main_c_3 : IVec S_ 1 := constantI S_ 1 1#1
  let main_v12 : IVec S_ 1 := (fun x v => Host.reduce IntOp.andi x v reducesTo_S32x96_S_d0_1 h_S_) main_v11 main_c_3
  let main_v13 : IVec S_ 1 := andi main_v8 main_v12
  main_v13
-- ==== Kernel.lean ====
abbrev S128x96x32x32 : Shape := ⟨4, ![128, 96, 32, 32]⟩
abbrev S32x96 : Shape := ⟨2, ![32, 96]⟩
abbrev S128x96x1024 : Shape := ⟨3, ![128, 96, 1024]⟩
abbrev S128x1024x96 : Shape := ⟨3, ![128, 1024, 96]⟩
abbrev S16x96x1024 : Shape := ⟨3, ![16, 96, 1024]⟩
abbrev S16x1024x96 : Shape := ⟨3, ![16, 1024, 96]⟩
abbrev S32x1x96 : Shape := ⟨3, ![32, 1, 96]⟩
abbrev S1x32x96 : Shape := ⟨3, ![1, 32, 96]⟩
abbrev S32x32x96 : Shape := ⟨3, ![32, 32, 96]⟩
abbrev S1024x96 : Shape := ⟨2, ![1024, 96]⟩
abbrev S96x96 : Shape := ⟨2, ![96, 96]⟩
abbrev S1x96x1024 : Shape := ⟨3, ![1, 96, 1024]⟩
abbrev S96x1024 : Shape := ⟨2, ![96, 1024]⟩
abbrev S1x1024x96 : Shape := ⟨3, ![1, 1024, 96]⟩

abbrev nBuf : Space → Nat
  | .hbm => 5
  | .vmem => 6
  | .smem => 0
  | _ => 0

abbrev bufTy : (tb : Table) → Fin (tcTables nBuf tb) → BufTy
  | .hbm, ⟨0, _⟩ => ⟨S128x96x32x32, .f32⟩
  | .hbm, ⟨1, _⟩ => ⟨S32x96, .f32⟩
  | .hbm, ⟨2, _⟩ => ⟨S32x96, .f32⟩
  | .hbm, ⟨3, _⟩ => ⟨S128x96x1024, .f32⟩
  | .hbm, ⟨4, _⟩ => ⟨S128x1024x96, .f32⟩
  | .local _ .vmem, ⟨0, _⟩ => ⟨S16x96x1024, .f32⟩
  | .local _ .vmem, ⟨1, _⟩ => ⟨S16x96x1024, .f32⟩
  | .local _ .vmem, ⟨2, _⟩ => ⟨S32x96, .f32⟩
  | .local _ .vmem, ⟨3, _⟩ => ⟨S32x96, .f32⟩
  | .local _ .vmem, ⟨4, _⟩ => ⟨S16x1024x96, .f32⟩
  | .local _ .vmem, ⟨5, _⟩ => ⟨S16x1024x96, .f32⟩
  | _, _ => ⟨S128x96x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x96x32x32_S128x96x1024 : S128x96x32x32.ShapeCasts S128x96x1024
  inb_S32x96_S32x96_0_0 : ∀ a, (![0, 0] : Fin 2 → Nat) a + S32x96.size a ≤ S32x96.size a
  h_S32x96 : 0 < S32x96.numel
  shapeCasts_S32x96_S32x1x96 : S32x96.ShapeCasts S32x1x96
  shapeCasts_S32x96_S1x32x96 : S32x96.ShapeCasts S1x32x96
  broadcasts_S32x1x96_S32x32x96 : S32x1x96.Broadcasts S32x32x96
  broadcasts_S1x32x96_S32x32x96 : S1x32x96.Broadcasts S32x32x96
  shapeCasts_S32x32x96_S1024x96 : S32x32x96.ShapeCasts S1024x96
  iota_S96x96_d0_w32 : S96x96.Iotas .tc 32 [0]
  iota_S96x96_d1_w32 : S96x96.Iotas .tc 32 [1]
  natLt_1_32 : 1 < 32
  inb_S16x96x1024_S1x96x1024_0_0_0 : ∀ a, (![0, 0, 0] : Fin 3 → Nat) a + S1x96x1024.size a ≤ S16x96x1024.size a
  h_S1x96x1024 : 0 < S1x96x1024.numel
  shapeCasts_S1x96x1024_S96x1024 : S1x96x1024.ShapeCasts S96x1024
  inb_S16x1024x96_S1x1024x96_0_0_0 : ∀ a, (![0, 0, 0] : Fin 3 → Nat) a + S1x1024x96.size a ≤ S16x1024x96.size a
  h_S1x1024x96 : 0 < S1x1024x96.numel
  shapeCasts_S1x1024x96_S1024x96 : S1x1024x96.ShapeCasts S1024x96
  shapeCasts_S1024x96_S1x1024x96 : S1024x96.ShapeCasts S1x1024x96
  inb_S16x96x1024_S1x96x1024_1_0_0 : ∀ a, (![1, 0, 0] : Fin 3 → Nat) a + S1x96x1024.size a ≤ S16x96x1024.size a
  inb_S16x1024x96_S1x1024x96_1_0_0 : ∀ a, (![1, 0, 0] : Fin 3 → Nat) a + S1x1024x96.size a ≤ S16x1024x96.size a
  inb_S16x96x1024_S1x96x1024_2_0_0 : ∀ a, (![2, 0, 0] : Fin 3 → Nat) a + S1x96x1024.size a ≤ S16x96x1024.size a
  inb_S16x1024x96_S1x1024x96_2_0_0 : ∀ a, (![2, 0, 0] : Fin 3 → Nat) a + S1x1024x96.size a ≤ S16x1024x96.size a
  inb_S16x96x1024_S1x96x1024_3_0_0 : ∀ a, (![3, 0, 0] : Fin 3 → Nat) a + S1x96x1024.size a ≤ S16x96x1024.size a
  inb_S16x1024x96_S1x1024x96_3_0_0 : ∀ a, (![3, 0, 0] : Fin 3 → Nat) a + S1x1024x96.size a ≤ S16x1024x96.size a
  inb_S16x96x1024_S1x96x1024_4_0_0 : ∀ a, (![4, 0, 0] : Fin 3 → Nat) a + S1x96x1024.size a ≤ S16x96x1024.size a
  inb_S16x1024x96_S1x1024x96_4_0_0 : ∀ a, (![4, 0, 0] : Fin 3 → Nat) a + S1x1024x96.size a ≤ S16x1024x96.size a
  inb_S16x96x1024_S1x96x1024_5_0_0 : ∀ a, (![5, 0, 0] : Fin 3 → Nat) a + S1x96x1024.size a ≤ S16x96x1024.size a
  inb_S16x1024x96_S1x1024x96_5_0_0 : ∀ a, (![5, 0, 0] : Fin 3 → Nat) a + S1x1024x96.size a ≤ S16x1024x96.size a
  inb_S16x96x1024_S1x96x1024_6_0_0 : ∀ a, (![6, 0, 0] : Fin 3 → Nat) a + S1x96x1024.size a ≤ S16x96x1024.size a
  inb_S16x1024x96_S1x1024x96_6_0_0 : ∀ a, (![6, 0, 0] : Fin 3 → Nat) a + S1x1024x96.size a ≤ S16x1024x96.size a
  inb_S16x96x1024_S1x96x1024_7_0_0 : ∀ a, (![7, 0, 0] : Fin 3 → Nat) a + S1x96x1024.size a ≤ S16x96x1024.size a
  inb_S16x1024x96_S1x1024x96_7_0_0 : ∀ a, (![7, 0, 0] : Fin 3 → Nat) a + S1x1024x96.size a ≤ S16x1024x96.size a
  inb_S16x96x1024_S1x96x1024_8_0_0 : ∀ a, (![8, 0, 0] : Fin 3 → Nat) a + S1x96x1024.size a ≤ S16x96x1024.size a
  inb_S16x1024x96_S1x1024x96_8_0_0 : ∀ a, (![8, 0, 0] : Fin 3 → Nat) a + S1x1024x96.size a ≤ S16x1024x96.size a
  inb_S16x96x1024_S1x96x1024_9_0_0 : ∀ a, (![9, 0, 0] : Fin 3 → Nat) a + S1x96x1024.size a ≤ S16x96x1024.size a
  inb_S16x1024x96_S1x1024x96_9_0_0 : ∀ a, (![9, 0, 0] : Fin 3 → Nat) a + S1x1024x96.size a ≤ S16x1024x96.size a
  inb_S16x96x1024_S1x96x1024_10_0_0 : ∀ a, (![10, 0, 0] : Fin 3 → Nat) a + S1x96x1024.size a ≤ S16x96x1024.size a
  inb_S16x1024x96_S1x1024x96_10_0_0 : ∀ a, (![10, 0, 0] : Fin 3 → Nat) a + S1x1024x96.size a ≤ S16x1024x96.size a
  inb_S16x96x1024_S1x96x1024_11_0_0 : ∀ a, (![11, 0, 0] : Fin 3 → Nat) a + S1x96x1024.size a ≤ S16x96x1024.size a
  inb_S16x1024x96_S1x1024x96_11_0_0 : ∀ a, (![11, 0, 0] : Fin 3 → Nat) a + S1x1024x96.size a ≤ S16x1024x96.size a
  inb_S16x96x1024_S1x96x1024_12_0_0 : ∀ a, (![12, 0, 0] : Fin 3 → Nat) a + S1x96x1024.size a ≤ S16x96x1024.size a
  inb_S16x1024x96_S1x1024x96_12_0_0 : ∀ a, (![12, 0, 0] : Fin 3 → Nat) a + S1x1024x96.size a ≤ S16x1024x96.size a
  inb_S16x96x1024_S1x96x1024_13_0_0 : ∀ a, (![13, 0, 0] : Fin 3 → Nat) a + S1x96x1024.size a ≤ S16x96x1024.size a
  inb_S16x1024x96_S1x1024x96_13_0_0 : ∀ a, (![13, 0, 0] : Fin 3 → Nat) a + S1x1024x96.size a ≤ S16x1024x96.size a
  inb_S16x96x1024_S1x96x1024_14_0_0 : ∀ a, (![14, 0, 0] : Fin 3 → Nat) a + S1x96x1024.size a ≤ S16x96x1024.size a
  inb_S16x1024x96_S1x1024x96_14_0_0 : ∀ a, (![14, 0, 0] : Fin 3 → Nat) a + S1x1024x96.size a ≤ S16x1024x96.size a
  inb_S16x96x1024_S1x96x1024_15_0_0 : ∀ a, (![15, 0, 0] : Fin 3 → Nat) a + S1x96x1024.size a ≤ S16x96x1024.size a
  inb_S16x1024x96_S1x1024x96_15_0_0 : ∀ a, (![15, 0, 0] : Fin 3 → Nat) a + S1x1024x96.size a ≤ S16x1024x96.size a
  dot_S96x1024_S96x96_S1024x96_0_0_1_1_n_n_wf : DotDims.WF S96x1024 S96x96 S1024x96 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x96x1024.size a ≤ S128x96x1024.size a
  hwx0_0 : ∀ i : grid0.Coords, EltTy.bits .f32 = 32 ∨ (Rect.block (s := S128x96x1024) S16x96x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x96.size a ≤ S32x96.size a
  hwx0_1 : ∀ i : grid0.Coords, EltTy.bits .f32 = 32 ∨ (Rect.block (s := S32x96) S32x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x96.size a ≤ S32x96.size a
  hwx0_2 : ∀ i : grid0.Coords, EltTy.bits .f32 = 32 ∨ (Rect.block (s := S32x96) S32x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024x96.size a ≤ S128x1024x96.size a
  hwx0_3 : ∀ i : grid0.Coords, EltTy.bits .f32 = 32 ∨ (Rect.block (s := S128x1024x96) S16x1024x96.size (cc0_transform_3 i) (hinb0_3 i)).WholeWords (EltTy.packing .f32)

variable [Facts₀]

def dot_S96x1024_S96x96_S1024x96_0_0_1_1_n_n : DotDims S96x1024 S96x96 S1024x96 where
  lhsContracting := [0]
  rhsContracting := [0]
  lhsNonContracting := [1]
  rhsNonContracting := [1]
  lhsBatch := []
  rhsBatch := []
  wf := dot_S96x1024_S96x96_S1024x96_0_0_1_1_n_n_wf

abbrev win0_0 : Pipeline.Window sig grid0 :=
  Pipeline.Window.ofSpec (Memref.whole main_v0) S16x96x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x1024x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x96x32x32 : Shape := ⟨4, ![128, 96, 32, 32]⟩
abbrev S32x96 : Shape := ⟨2, ![32, 96]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S1x32x96 : Shape := ⟨3, ![1, 32, 96]⟩
abbrev S32x32x96 : Shape := ⟨3, ![32, 32, 96]⟩
abbrev S32x1x96 : Shape := ⟨3, ![32, 1, 96]⟩
abbrev S96x32x32 : Shape := ⟨3, ![96, 32, 32]⟩
abbrev S1x96x32x32 : Shape := ⟨4, ![1, 96, 32, 32]⟩
abbrev S128x32x32x96 : Shape := ⟨4, ![128, 32, 32, 96]⟩
abbrev S128x1024x96 : Shape := ⟨3, ![128, 1024, 96]⟩

abbrev nBuf : Space → Nat
  | .hbm => 62
  | .vmem => 0
  | .smem => 0
  | _ => 0

abbrev bufTy : (tb : Table) → Fin (tcTables nBuf tb) → BufTy
  | .hbm, ⟨0, _⟩ => ⟨S128x96x32x32, .f32⟩
  | .hbm, ⟨1, _⟩ => ⟨S32x96, .f32⟩
  | .hbm, ⟨2, _⟩ => ⟨S32x96, .f32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S1, .i32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S1x1, .i32⟩
  | .hbm, ⟨18, _⟩ => ⟨S32x1, .i32⟩
  | .hbm, ⟨19, _⟩ => ⟨S32x1, .i1⟩
  | .hbm, ⟨20, _⟩ => ⟨S32x1, .i1⟩
  | .hbm, ⟨21, _⟩ => ⟨S_, .i1⟩
  | .hbm, ⟨22, _⟩ => ⟨S32, .i1⟩
  | .hbm, ⟨23, _⟩ => ⟨S32x96, .f32⟩
  | .hbm, ⟨24, _⟩ => ⟨S32x96, .i1⟩
  | .hbm, ⟨25, _⟩ => ⟨S_, .f32⟩
  | .hbm, ⟨26, _⟩ => ⟨S32x96, .f32⟩
  | .hbm, ⟨27, _⟩ => ⟨S32x96, .f32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S1, .i32⟩
  | .hbm, ⟨37, _⟩ => ⟨S_, .i32⟩
  | .hbm, ⟨38, _⟩ => ⟨S32x1, .i32⟩
  | .hbm, ⟨39, _⟩ => ⟨S32x1, .i1⟩
  | .hbm, ⟨40, _⟩ => ⟨S1x1, .i32⟩
  | .hbm, ⟨41, _⟩ => ⟨S32x1, .i32⟩
  | .hbm, ⟨42, _⟩ => ⟨S32x1, .i1⟩
  | .hbm, ⟨43, _⟩ => ⟨S32x1, .i1⟩
  | .hbm, ⟨44, _⟩ => ⟨S_, .i1⟩
  | .hbm, ⟨45, _⟩ => ⟨S32, .i1⟩
  | .hbm, ⟨46, _⟩ => ⟨S32x96, .f32⟩
  | .hbm, ⟨47, _⟩ => ⟨S32x96, .i1⟩
  | .hbm, ⟨48, _⟩ => ⟨S_, .f32⟩
  | .hbm, ⟨49, _⟩ => ⟨S32x96, .f32⟩
  | .hbm, ⟨50, _⟩ => ⟨S32x96, .f32⟩
  | .hbm, ⟨51, _⟩ => ⟨S1x32x96, .f32⟩
  | .hbm, ⟨52, _⟩ => ⟨S32x32x96, .f32⟩
  | .hbm, ⟨53, _⟩ => ⟨S32x1x96, .f32⟩
  | .hbm, ⟨54, _⟩ => ⟨S32x32x96, .f32⟩
  | .hbm, ⟨55, _⟩ => ⟨S32x32x96, .f32⟩
  | .hbm, ⟨56, _⟩ => ⟨S96x32x32, .f32⟩
  | .hbm, ⟨57, _⟩ => ⟨S1x96x32x32, .f32⟩
  | .hbm, ⟨58, _⟩ => ⟨S128x96x32x32, .f32⟩
  | .hbm, ⟨59, _⟩ => ⟨S128x96x32x32, .f32⟩
  | .hbm, ⟨60, _⟩ => ⟨S128x32x32x96, .f32⟩
  | .hbm, ⟨61, _⟩ => ⟨S128x1024x96, .f32⟩
  | _, _ => ⟨S128x96x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  h_S_ : 0 < S_.numel
  bcast_S32_S32x96_0 : S32.BroadcastsInDim S32x96 (![0] : Fin 1 → Fin S32x96.rank)
  bcast_S_S32x96 : S_.BroadcastsInDim S32x96 (![] : Fin 0 → Fin S32x96.rank)
  bcast_S32x96_S1x32x96_1_2 : S32x96.BroadcastsInDim S1x32x96 (![1, 2] : Fin 2 → Fin S1x32x96.rank)
  bcast_S1x32x96_S32x32x96_0_1_2 : S1x32x96.BroadcastsInDim S32x32x96 (![0, 1, 2] : Fin 3 → Fin S32x32x96.rank)
  bcast_S32x96_S32x1x96_0_2 : S32x96.BroadcastsInDim S32x1x96 (![0, 2] : Fin 2 → Fin S32x1x96.rank)
  bcast_S32x1x96_S32x32x96_0_1_2 : S32x1x96.BroadcastsInDim S32x32x96 (![0, 1, 2] : Fin 3 → Fin S32x32x96.rank)
  transposes_S32x32x96_S96x32x32_2_0_1 : S32x32x96.Transposes [2, 0, 1] S96x32x32
  bcast_S96x32x32_S1x96x32x32_1_2_3 : S96x32x32.BroadcastsInDim S1x96x32x32 (![1, 2, 3] : Fin 3 → Fin S1x96x32x32.rank)
  bcast_S1x96x32x32_S128x96x32x32_0_1_2_3 : S1x96x32x32.BroadcastsInDim S128x96x32x32 (![0, 1, 2, 3] : Fin 4 → Fin S128x96x32x32.rank)
  transposes_S128x96x32x32_S128x32x32x96_0_2_3_1 : S128x96x32x32.Transposes [0, 2, 3, 1] S128x32x32x96
  shapeCasts_S128x32x32x96_S128x1024x96 : S128x32x32x96.ShapeCasts S128x1024x96
  gather_S32x96_S32x1_S32x96_1_0_n_n_0_1_196_wf : GatherDims.WF S32x96 S32x1 S32x96 [1] [0] [] [0] [] 1 ![1, 96]

variable [Facts₀]

def gather_S32x96_S32x1_S32x96_1_0_n_n_0_1_196 : GatherDims S32x96 S32x1 S32x96 where
  offsetDims := [1]
  collapsedSliceDims := [0]
  operandBatchingDims := []
  startIndicesBatchingDims := []
  startIndexMap := [0]
  indexVectorDim := 1
  sliceSizes := ![1, 96]
  wf := gather_S32x96_S32x1_S32x96_1_0_n_n_0_1_196_wf

class Facts : Prop extends Facts₀ where

variable [Facts]
-- ==== Proof.LibMatmulTN.lean ====
/-
  A general lemma: the vector unit's matrix product of a LEFT OPERAND CONTRACTED ON ITS ROWS, read at an index.

  `lax.dot_general(a, b, (((0,), (0,)), ((), ())))` of `a : [K, M]` and `b : [K, N]` lowers to a `tpu.matmul` with
  dimension numbers lhs_contracting `[0]`, rhs_contracting `[0]`, lhs_non_contracting `[1]`, rhs_non_contracting `[1]`:
  the product `aᵀ · b : [M, N]`. Over the extended reals, into a zero accumulator, its entry `(i, j)` is the plain sum
  `∑ k, a (k, i) · b (k, j)` — no rounding and no order of accumulation are left in it.
-/
import Idealize.ShloMosaic.PureOps.Ideal.Laws
import Idealize.ShloMosaic.Lib.ValueIdx

noncomputable section

namespace Cert.Lib.MatmulTN

open Idealize.ShloMosaic Idealize.ShloMosaic.ValueIdx

/-- Those dimension numbers for a left operand `[K, M]`, a right operand `[K, N]` and a result `[M, N]`; their
    conditions `wf` are decided on a program's literal shapes. -/
abbrev tnDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : Nat} (wf : DotDims.WF ⟨2, ![K, M]⟩ ⟨2, ![K, N]⟩ ⟨2, ![M, N]⟩ [0] [0] [1] [1] [] [])

theorem contr_rank : (tnDims K M N wf).contr.rank = 1 := rfl

theorem contr_size : (tnDims K M N wf).contr.size ⟨0, by rw [contr_rank]; exact Nat.one_pos⟩ = K := rfl

/-- The left operand's index at result `(i, j)` and contraction position `k` is `(k, i)`. -/
theorem lhsIdx_eq (i : Fin M) (j : Fin N) (k : Fin K) :
    (tnDims K M N wf).lhsIdx (ix2 i j) ((contrEquiv1 (tnDims K M N wf) K (contr_rank wf) (contr_size wf)).symm k) = ix2 k i := by
  funext a
  refine Fin.ext ?_
  match a with
  | ⟨0, _⟩ =>
    refine ((tnDims K M N wf).lhsIdx_val_of_single (cl := (0 : Fin 2)) rfl _ _).trans ?_
    exact contrEquiv1_symm_val _ K (contr_rank wf) (contr_size wf) k
  | ⟨1, _⟩ => rfl

/-- The right operand's index at result `(i, j)` and contraction position `k` is `(k, j)`. -/
theorem rhsIdx_eq (i : Fin M) (j : Fin N) (k : Fin K) :
    (tnDims K M N wf).rhsIdx (ix2 i j) ((contrEquiv1 (tnDims K M N wf) K (contr_rank wf) (contr_size wf)).symm k) = ix2 k j := by
  funext a
  refine Fin.ext ?_
  match a with
  | ⟨0, _⟩ =>
    refine ((tnDims K M N wf).rhsIdx_val_of_single (cr := (0 : Fin 2)) rfl _ _).trans ?_
    exact contrEquiv1_symm_val _ K (contr_rank wf) (contr_size wf) k
  | ⟨1, _⟩ => rfl

/-- THE PRODUCT READ AT `(i, j)`: into the zero accumulator, the sum over the shared row index `k` of
    `a (k, i) · b (k, j)`. -/
theorem matmul_tn_apply {φ₁ φ₂ : FTy} (prec : Option ContractPrecision)
    (a : FVec Ideal ⟨2, ![K, M]⟩ φ₁) (b : FVec Ideal ⟨2, ![K, N]⟩ φ₂) (i : Fin M) (j : Fin N) :
    FloatOps.matmul (tnDims K M N wf) prec a b (constant ⟨2, ![M, N]⟩ .f32 0x00000000#32) (ix2 i j)
      = ∑ k : Fin K, a (ix2 k i) * b (ix2 k j) := by
  rw [Ideal.matmul_constant_zero_apply,
    ← Equiv.sum_comp (contrEquiv1 (tnDims K M N wf) K (contr_rank wf) (contr_size wf)).symm]
  refine Finset.sum_congr rfl fun k _ => ?_
  rw [lhsIdx_eq, rhsIdx_eq]

end Cert.Lib.MatmulTN

end
-- ==== Proof.KernelSlab.lean ====
/-
  One batch element of the kernel's block, read at an index, over the extended reals.

  For each of the sixteen batch elements of a block the kernel's body computes the same thing: the element's
  `[96, 1024]` slab (channels by positions) multiplied, contracted on the channel axis, with the `96 × 96` identity
  matrix it builds from two iotas — which transposes the slab to `[1024, 96]` —, plus the position table
  `pos (h·32 + w, c) = row (h, c) + col (w, c)`. At position `s` and channel `c` this is
  `x (c, s) + (row (s / 32, c) + col (s % 32, c))`: every summand of the product but the one at `k = c` is
  `x (k, s) · 0 = 0`, on the extended reals too, and the one at `c` is `x (c, s) · 1`.
-/
import proofs.«131013_g47768626266375_cont_8to1c4_508_8_alg».proof.Proof.Gen.KernelIdeal.Skeleton
import proofs.«131013_g47768626266375_cont_8to1c4_508_8_alg».proof.Proof.LibMatmulTN
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.ValueIdx

/-! ## The identity matrix -/

/-- The matrix the body builds from the row iota and the column iota — `1` where they agree, `0` elsewhere — is the
    identity: at `(k, c)` it is `1` if `k = c` and `0` otherwise. -/
theorem eye_apply (k c : Fin 96) : (k0_pay4 (F := Ideal)) (ix2 k c) = if k = c then 1 else 0 := by
  unfold k0_pay4
  show FloatOps.sitofp (F := Ideal) .f32
      ((IntOp.cmpi .eq (iota .tc S96x96 32 [0] iota_S96x96_d0_w32 (ix2 k c))
        (iota .tc S96x96 32 [1] iota_S96x96_d1_w32 (ix2 k c))).setWidth 32) = _
  rw [iota_single_apply, iota_single_apply]
  show (((((IntOp.cmpi .eq (BitVec.ofNat 32 k.val) (BitVec.ofNat 32 c.val)).setWidth 32).toInt : ℤ) : ℝ) : EReal) = _
  have hk : k.val < 96 := k.isLt
  have hc : c.val < 96 := c.isLt
  by_cases h : k = c
  · subst h
    rw [if_pos rfl]
    have : IntOp.cmpi .eq (BitVec.ofNat 32 k.val) (BitVec.ofNat 32 k.val) = 1#1 := by
      simp [IntOp.cmpi]
    rw [this]
    norm_num
  · rw [if_neg h]
    have hne : BitVec.ofNat 32 k.val ≠ BitVec.ofNat 32 c.val := by
      intro e
      have := congrArg BitVec.toNat e
      simp only [BitVec.toNat_ofNat] at this
      exact h (Fin.ext (by omega))
    have : IntOp.cmpi .eq (BitVec.ofNat 32 k.val) (BitVec.ofNat 32 c.val) = 0#1 := by
      have hb : (BitVec.ofNat 32 k.val == BitVec.ofNat 32 c.val) = false := beq_eq_false_iff_ne.mpr hne
      simp only [IntOp.cmpi, hb]
      rfl
    rw [this]
    norm_num

/-! ## The position table -/

/-- The position table the body builds — the rows' table along a new middle axis plus the columns' table along a new
    leading axis, the two leading axes then folded into one — reads, at position `s` and channel `c`,
    `row (s / 32, c) + col (s % 32, c)`. -/
theorem pos_apply (v0 v1 : Vec Ideal S32x96 .f32) (s : Fin 1024) (c : Fin 96) (h w : Fin 32)
    (hh : h.val = s.val / 32) (hw : w.val = s.val % 32) :
    k0_pay3 v0 v1 (ix2 s c) = v0 (ix2 h c) + v1 (ix2 w c) := by
  unfold k0_pay3
  refine (shapeCast_apply _ shapeCasts_S32x32x96_S1024x96 (ix2 s c) (ix3 h w c) (by
    rw [Shape.rowMajor_val_three, Shape.rowMajor_val_two]
    show (h.val * 32 + w.val) * 96 + c.val = s.val * 96 + c.val
    rw [hh, hw]; omega)).trans ?_
  rw [addf_apply]
  congr 1
  · refine (broadcastTo_apply _ broadcasts_S32x1x96_S32x32x96 (ix3 h w c) (ix3 h (0 : Fin 1) c) (fun a => by
      match a with
      | ⟨0, _⟩ => rfl
      | ⟨1, _⟩ => rfl
      | ⟨2, _⟩ => rfl)).trans ?_
    exact shapeCast_apply _ shapeCasts_S32x96_S32x1x96 (ix3 h (0 : Fin 1) c) (ix2 h c) (by
      rw [Shape.rowMajor_val_three, Shape.rowMajor_val_two]
      show h.val * 96 + c.val = (h.val * 1 + 0) * 96 + c.val
      omega)
  · refine (broadcastTo_apply _ broadcasts_S1x32x96_S32x32x96 (ix3 h w c) (ix3 (0 : Fin 1) w c) (fun a => by
      match a with
      | ⟨0, _⟩ => rfl
      | ⟨1, _⟩ => rfl
      | ⟨2, _⟩ => rfl)).trans ?_
    exact shapeCast_ab_1ab_apply _ shapeCasts_S32x96_S1x32x96 (0 : Fin 1) w c

/-! ## One batch element -/

/-- What the body stores for one batch element, from the element's loaded slab `xs : [1, 96, 1024]` and the two
    loaded tables: the slab times the identity, contracted on the channel axis, plus the position table, as a
    `[1, 1024, 96]` piece. -/
def slab {F : FTy → Type} [FloatOps F] (v0 v1 : Vec F S32x96 .f32) (xs : Vec F S1x96x1024 .f32) : FVec F S1x1024x96 .f32 :=
  shapeCast S1x1024x96
    (addf (matmul dot_S96x1024_S96x96_S1024x96_0_0_1_1_n_n (some .fp32)
        (shapeCast S96x1024 xs shapeCasts_S1x96x1024_S96x1024) (k0_pay4 (F := F)) (constant S1024x96 .f32 0x00000000#32))
      (k0_pay3 v0 v1))
    shapeCasts_S1024x96_S1x1024x96

/-- THE PIECE AT AN INDEX: at position `s` and channel `c` it is the slab's entry at channel `c` and position `s` plus
    the two tables' entries of the position's row `s / 32` and column `s % 32`. -/
theorem slab_apply (v0 v1 : Vec Ideal S32x96 .f32) (xs : Vec Ideal S1x96x1024 .f32) (u : Fin 1) (s : Fin 1024) (c : Fin 96)
    (h w : Fin 32) (hh : h.val = s.val / 32) (hw : w.val = s.val % 32) :
    slab v0 v1 xs (ix3 u s c) = xs (ix3 (0 : Fin 1) c s) + (v0 (ix2 h c) + v1 (ix2 w c)) := by
  unfold slab
  refine (shapeCast_ab_1ab_apply _ shapeCasts_S1024x96_S1x1024x96 u s c).trans ?_
  rw [addf_apply, pos_apply v0 v1 s c h w hh hw]
  congr 1
  refine (Cert.Lib.MatmulTN.matmul_tn_apply (K := 96) (M := 1024) (N := 96)
    dot_S96x1024_S96x96_S1024x96_0_0_1_1_n_n_wf (some .fp32)
    (shapeCast S96x1024 xs shapeCasts_S1x96x1024_S96x1024) (k0_pay4 (F := Ideal)) s c).trans ?_
  rw [Finset.sum_eq_single c]
  · rw [eye_apply, if_pos rfl, mul_one]
    exact shapeCast_1ab_ab_apply _ shapeCasts_S1x96x1024_S96x1024 c s
  · intro k _ hk
    rw [eye_apply, if_neg hk, mul_zero]
  · intro hc
    exact absurd (Finset.mem_univ c) hc

end Cert.KernelIdeal.Hand

end
-- ==== Proof.Spec.lean ====
/-
  The specification: what both programs compute, index by index, over the extended reals.

  `out (b, s, c) = x (b, c, s / 32, s % 32) + (row (s / 32, c) + col (s % 32, c))` for a batch element `b`, a position
  `s = h · 32 + w` of the `32 × 32` grid and a channel `c`: the input moved to channels-last with its two spatial axes
  folded into one, plus the learned position embedding of the position's row `h` and column `w`.
-/
import Idealize.ShloMosaic.PureOps.Ideal
import Idealize.ShloMosaic.Lib.ValueIdx

noncomputable section

namespace Cert.Spec

open Idealize.ShloMosaic Idealize.ShloMosaic.ValueIdx

/-- The grid row of a folded position. -/
abbrev rowOf (s : Fin 1024) : Fin 32 := ⟨s.val / 32, by omega⟩
/-- The grid column of a folded position. -/
abbrev colOf (s : Fin 1024) : Fin 32 := ⟨s.val % 32, by omega⟩

/-- The result at batch element `b`, position `s`, channel `c`. -/
def posAt (x : (⟨4, ![128, 96, 32, 32]⟩ : Shape).Idx → EReal) (row col : (⟨2, ![32, 96]⟩ : Shape).Idx → EReal)
    (b : Fin 128) (s : Fin 1024) (c : Fin 96) : EReal :=
  x (ix4 b c (rowOf s) (colOf s)) + (row (ix2 (rowOf s) c) + col (ix2 (colOf s) c))

/-- The result array, as one function of the three argument arrays. -/
def posEmbed (x : (⟨4, ![128, 96, 32, 32]⟩ : Shape).Idx → EReal) (row col : (⟨2, ![32, 96]⟩ : Shape).Idx → EReal) :
    (⟨3, ![128, 1024, 96]⟩ : Shape).Idx → EReal :=
  fun i => posAt x row col (i 0) (i 1) (i 2)

end Cert.Spec

end
-- ==== Proof.KernelBlock.lean ====
/-
  What the kernel's body leaves in its output block, as one function of the three input blocks.

  The body stores sixteen pieces, one per batch element `n` of the block: piece `n` is the `[1, 1024, 96]` slab at rows
  `n` of the `[16, 1024, 96]` block, computed from batch element `n` of the input block. Each piece is therefore the
  restriction to its rectangle of ONE function of the block index `(n, s, c)`:
  `x (n, c, s) + (row (s / 32, c) + col (s % 32, c))`; the pieces tile the block, so the block is that function.
-/
import proofs.«131013_g47768626266375_cont_8to1c4_508_8_alg».proof.Proof.Gen.KernelIdeal.Frame
import proofs.«131013_g47768626266375_cont_8to1c4_508_8_alg».proof.Proof.KernelSlab
import proofs.«131013_g47768626266375_cont_8to1c4_508_8_alg».proof.Proof.Spec

noncomputable section

namespace Cert.KernelIdeal.Hand

open Cert.KernelIdeal Cert.KernelIdeal.Gen Idealize.ShloMosaic Idealize.ShloMosaic.ValueIdx Cert.Spec

/-- The block as a function of the input blocks: batch element `n` of the block, position `s`, channel `c`. -/
def blockAt (x0 : Vec Ideal S16x96x1024 .f32) (x1 x2 : Vec Ideal S32x96 .f32) (n : Fin 16) (s : Fin 1024) (c : Fin 96) : EReal :=
  x0 (ix3 n c s) + (x1 (ix2 (rowOf s) c) + x2 (ix2 (colOf s) c))

def blockFn (x0 : Vec Ideal S16x96x1024 .f32) (x1 x2 : Vec Ideal S32x96 .f32) : Vec Ideal S16x1024x96 .f32 :=
  fun y => blockAt x0 x1 x2 (y 0) (y 1) (y 2)

theorem hz2 : (![0, 0] : Fin 2 → Nat) = fun _ => 0 := funext fun a => by fin_cases a <;> rfl

/-- Piece `n` of the body's stores — the slab of batch element `n` of the input block — is the block function on
    the piece's rectangle, rows `n` of the block. -/
theorem piece_eq (x0 : Vec Ideal S16x96x1024 .f32) (x1 x2 : Vec Ideal S32x96 .f32) (n : Nat) (hn : n < 16)
    (inbL : ∀ a, (![n, 0, 0] : Fin 3 → Nat) a + S1x96x1024.size a ≤ S16x96x1024.size a)
    (inbS : ∀ a, (![n, 0, 0] : Fin 3 → Nat) a + S1x1024x96.size a ≤ S16x1024x96.size a) (z : S1x1024x96.Idx) :
    slab (View.ld x1 r0_0) (View.ld x2 r0_0) (View.ld x0 (Rect.unit (s := S16x96x1024) ![n, 0, 0] S1x96x1024.size inbL)) z
      = blockFn x0 x1 x2 ((Rect.unit (s := S16x1024x96) ![n, 0, 0] S1x1024x96.size inbS).emb z) := by
  obtain ⟨u, s, c, rfl⟩ : ∃ (u : Fin 1) (s : Fin 1024) (c : Fin 96), z = ix3 u s c := ⟨z 0, z 1, z 2, eq_ix3 z⟩
  have hu : u.val = 0 := by omega
  rw [slab_apply _ _ _ u s c (rowOf s) (colOf s) rfl rfl, View.ld_unit_zero hz2, View.ld_unit_zero hz2]
  have hS : (Rect.unit (s := S16x1024x96) ![n, 0, 0] S1x1024x96.size inbS).emb (ix3 u s c) = ix3 (⟨n, hn⟩ : Fin 16) s c := by
    funext a; refine Fin.ext ?_
    match a with
    | ⟨0, _⟩ => show n + 1 * u.val = n; omega
    | ⟨1, _⟩ => show 0 + 1 * s.val = s.val; omega
    | ⟨2, _⟩ => show 0 + 1 * c.val = c.val; omega
  have hL : (Rect.unit (s := S16x96x1024) ![n, 0, 0] S1x96x1024.size inbL).idx (ix3 (0 : Fin 1) c s) = ix3 (⟨n, hn⟩ : Fin 16) c s := by
    funext a; refine Fin.ext ?_
    match a with
    | ⟨0, _⟩ => show n + 1 * 0 = n; omega
    | ⟨1, _⟩ => show 0 + 1 * c.val = c.val; omega
    | ⟨2, _⟩ => show 0 + 1 * s.val = s.val; omega
  rw [hS]
  show x0 ((Rect.unit (s := S16x96x1024) ![n, 0, 0] S1x96x1024.size inbL).idx (ix3 (0 : Fin 1) c s)) + _ = _
  rw [hL]
  rfl

/-- THE BLOCK: what the body leaves in the output block is the block function of the three input blocks. -/
theorem out_block (x0 : Vec Ideal S16x96x1024 .f32) (x1 x2 : Vec Ideal S32x96 .f32) :
    out0_3 x0 x1 x2 = blockFn x0 x1 x2 := by
  funext y
  unfold out0_3
  refine View.canon_apply_of_pieces (blockFn x0 x1 x2) _ ?_ y (cover0_3 _ _ _ _ _ _ _ _ _ _ _ _ _ _ _ _ y)
  intro p hp z
  simp only [List.mem_cons, List.not_mem_nil, or_false] at hp
  rcases hp with rfl | rfl | rfl | rfl | rfl | rfl | rfl | rfl | rfl | rfl | rfl | rfl | rfl | rfl | rfl | rfl
  · exact piece_eq x0 x1 x2 15 (by decide) inb_S16x96x1024_S1x96x1024_15_0_0 inb_S16x1024x96_S1x1024x96_15_0_0 z
  · exact piece_eq x0 x1 x2 14 (by decide) inb_S16x96x1024_S1x96x1024_14_0_0 inb_S16x1024x96_S1x1024x96_14_0_0 z
  · exact piece_eq x0 x1 x2 13 (by decide) inb_S16x96x1024_S1x96x1024_13_0_0 inb_S16x1024x96_S1x1024x96_13_0_0 z
  · exact piece_eq x0 x1 x2 12 (by decide) inb_S16x96x1024_S1x96x1024_12_0_0 inb_S16x1024x96_S1x1024x96_12_0_0 z
  · exact piece_eq x0 x1 x2 11 (by decide) inb_S16x96x1024_S1x96x1024_11_0_0 inb_S16x1024x96_S1x1024x96_11_0_0 z
  · exact piece_eq x0 x1 x2 10 (by decide) inb_S16x96x1024_S1x96x1024_10_0_0 inb_S16x1024x96_S1x1024x96_10_0_0 z
  · exact piece_eq x0 x1 x2 9 (by decide) inb_S16x96x1024_S1x96x1024_9_0_0 inb_S16x1024x96_S1x1024x96_9_0_0 z
  · exact piece_eq x0 x1 x2 8 (by decide) inb_S16x96x1024_S1x96x1024_8_0_0 inb_S16x1024x96_S1x1024x96_8_0_0 z
  · exact piece_eq x0 x1 x2 7 (by decide) inb_S16x96x1024_S1x96x1024_7_0_0 inb_S16x1024x96_S1x1024x96_7_0_0 z
  · exact piece_eq x0 x1 x2 6 (by decide) inb_S16x96x1024_S1x96x1024_6_0_0 inb_S16x1024x96_S1x1024x96_6_0_0 z
  · exact piece_eq x0 x1 x2 5 (by decide) inb_S16x96x1024_S1x96x1024_5_0_0 inb_S16x1024x96_S1x1024x96_5_0_0 z
  · exact piece_eq x0 x1 x2 4 (by decide) inb_S16x96x1024_S1x96x1024_4_0_0 inb_S16x1024x96_S1x1024x96_4_0_0 z
  · exact piece_eq x0 x1 x2 3 (by decide) inb_S16x96x1024_S1x96x1024_3_0_0 inb_S16x1024x96_S1x1024x96_3_0_0 z
  · exact piece_eq x0 x1 x2 2 (by decide) inb_S16x96x1024_S1x96x1024_2_0_0 inb_S16x1024x96_S1x1024x96_2_0_0 z
  · exact piece_eq x0 x1 x2 1 (by decide) inb_S16x96x1024_S1x96x1024_1_0_0 inb_S16x1024x96_S1x1024x96_1_0_0 z
  · exact piece_eq x0 x1 x2 0 (by decide) inb_S16x96x1024_S1x96x1024_0_0_0 inb_S16x1024x96_S1x1024x96_0_0_0 z

end Cert.KernelIdeal.Hand

end
-- ==== Proof.KernelArray.lean ====
/-
  From the kernel's blocks to its result array.

  Grid point `t` reads batch elements `16 t … 16 t + 15` of the input (as the host has reshaped it, `[128, 96, 1024]`: the
  two spatial axes folded) and the two embedding tables whole, and writes back batch elements `16 t … 16 t + 15` of the
  result. What it writes is the block function of its input blocks, which is block `t` of ONE function of the whole
  arrays: `X (b, c, s) + (row (s / 32, c) + col (s % 32, c))`. The eight blocks cover the result, so the result is that
  function; and `X (b, c, s)`, the reshaped input, is `x (b, c, s / 32, s % 32)`.
-/
import proofs.«131013_g47768626266375_cont_8to1c4_508_8_alg».proof.Proof.Gen.KernelIdeal.Value
import proofs.«131013_g47768626266375_cont_8to1c4_508_8_alg».proof.Proof.KernelBlock
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The result array as one function of the reshaped input `X : [128, 96, 1024]` and the two tables. -/
def arrFn (X : Vec Ideal S128x96x1024 .f32) (x1 x2 : Vec Ideal S32x96 .f32) : Vec Ideal S128x1024x96 .f32 :=
  fun i => X (ix3 (n0 := 128) (n1 := 96) (n2 := 1024) (i 0) (i 2) (i 1))
    + (x1 (ix2 (rowOf (i 1)) (i 2)) + x2 (ix2 (colOf (i 1)) (i 2)))

/-- The block function of blocks that are batch elements `16 T …` of `X` and the whole tables is block `T` of `arrFn`. -/
theorem blockFn_read (X : Vec Ideal S128x96x1024 .f32) (A1 A2 : Vec Ideal S32x96 .f32)
    (x0 : Vec Ideal S16x96x1024 .f32) (x1 x2 : Vec Ideal S32x96 .f32) (T : Nat)
    (h0 : ∀ (n : Fin 16) (c : Fin 96) (s : Fin 1024) (b : Fin 128), b.val = T * 16 + n.val → x0 (ix3 n c s) = X (ix3 b c s))
    (h1 : x1 = A1) (h2 : x2 = A2) (j : S16x1024x96.Idx) (i : S128x1024x96.Idx)
    (hi0 : (i 0).val = T * 16 + (j 0).val) (hi1 : i 1 = j 1) (hi2 : i 2 = j 2) :
    blockFn x0 x1 x2 j = arrFn X A1 A2 i := by
  subst h1 h2
  unfold blockFn blockAt arrFn
  rw [hi1, hi2, h0 (j 0) (j 2) (j 1) (i 0) hi0]

/-- The printed index maps over the grid: the input window moves with the output along the batch axis, at block `t`;
    everything else sits at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- WHAT POINT `t` WRITES BACK is block `t` of `arrFn` of the arrays as the region finds them. -/
theorem flushed_eq (c : Dev nD) (t : Fin cfg0.N) :
    (dats m 0 c).flushed 3 t
      = ((cfg0.win 3).blk t).view.read (Elt Ideal) (arrFn (V m c main_v0) (V m c main_arg1) (V m c main_arg2)) := by
  rw [Value.flushed3]
  obtain ⟨e00, e01, e02, e10, e11, e20, e21, e30, e31, e32⟩ := idx_facts t
  funext j
  show out0_3 (iblk m c 0 t) (iblk m c 1 t) (iblk m c 2 t) j
    = arrFn (V m c main_v0) (V m c main_arg1) (V m c main_arg2) (((cfg0.win 3).blk t).view.emb j)
  refine (congrFun (out_block (iblk m c 0 t) (iblk m c 1 t) (iblk m c 2 t)) j).trans ?_
  refine blockFn_read (V m c main_v0) (V m c main_arg1) (V m c main_arg2) _ _ _ t.val ?_ ?_ ?_ j _ ?_ ?_ ?_
  · intro n ch s b hb
    show V m c main_v0 (((cfg0.win 0).blk t).view.emb (ix3 n ch s)) = V m c main_v0 (ix3 b ch s)
    refine congrArg (V m c main_v0) (funext fun a => Fin.ext ?_)
    match a with
    | ⟨0, _⟩ => show win0_0.index t (0 : Fin 3) * 16 + 1 * n.val = b.val; omega
    | ⟨1, _⟩ => show win0_0.index t (1 : Fin 3) * 96 + 1 * ch.val = ch.val; omega
    | ⟨2, _⟩ => show win0_0.index t (2 : Fin 3) * 1024 + 1 * s.val = s.val; omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 32 + 1 * (y 0).val = (y 0).val; omega
    | ⟨1, _⟩ => show win0_1.index t (1 : Fin 2) * 96 + 1 * (y 1).val = (y 1).val; omega
  · funext y
    show V m c main_arg2 (((cfg0.win 2).blk t).view.emb y) = V m c main_arg2 y
    refine congrArg (V m c main_arg2) (funext fun a => Fin.ext ?_)
    match a with
    | ⟨0, _⟩ => show win0_2.index t (0 : Fin 2) * 32 + 1 * (y 0).val = (y 0).val; omega
    | ⟨1, _⟩ => show win0_2.index t (1 : Fin 2) * 96 + 1 * (y 1).val = (y 1).val; omega
  · show win0_3.index t (0 : Fin 3) * 16 + 1 * (j 0).val = t.val * 16 + (j 0).val; omega
  · refine Fin.ext ?_
    show win0_3.index t (1 : Fin 3) * 1024 + 1 * (j 1).val = (j 1).val; omega
  · refine Fin.ext ?_
    show win0_3.index t (2 : Fin 3) * 96 + 1 * (j 2).val = (j 2).val; omega

/-- An index of the result is in point `t`'s block iff each coordinate is in the block's range on its axis. -/
theorem mem_blk (t : Fin cfg0.N) (i : S128x1024x96.Idx) :
    i ∈ ((cfg0.win 3).blk t).view.set ↔ ∀ a : Fin 3, win0_3.index t a * S16x1024x96.size a ≤ (i a).val
      ∧ (i a).val < win0_3.index t a * S16x1024x96.size a + S16x1024x96.size a := by
  show i ∈ ((View.whole main_v1).slice (win0_3.rect t)).set ↔ _
  rw [View.set_slice_whole, Rect.mem_set_unit]
  exact Iff.rfl

/-- Every index of the result is in the block of the point its batch element belongs to. -/
theorem cover (i : S128x1024x96.Idx) :
    ∃ t : Fin cfg0.N, (cfg0.win 3).flush t = true ∧ i ∈ ((cfg0.win 3).blk t).view.set := by
  have hN : cfg0.N = 8 := N_0
  have hi0 : (i 0).val < 128 := (i 0).isLt
  have hi1 : (i 1).val < 1024 := (i 1).isLt
  have hi2 : (i 2).val < 96 := (i 2).isLt
  refine ⟨⟨(i 0).val / 16, by rw [hN]; omega⟩, flush0_3 _, ?_⟩
  rw [mem_blk]
  obtain ⟨e00, e01, e02, e10, e11, e20, e21, e30, e31, e32⟩ := idx_facts ⟨(i 0).val / 16, by rw [hN]; omega⟩
  intro a
  match a with
  | ⟨0, _⟩ =>
    show win0_3.index _ (0 : Fin 3) * 16 ≤ (i 0).val ∧ (i 0).val < win0_3.index _ (0 : Fin 3) * 16 + 16
    rw [e30]; show (i 0).val / 16 * 16 ≤ (i 0).val ∧ (i 0).val < (i 0).val / 16 * 16 + 16; omega
  | ⟨1, _⟩ =>
    show win0_3.index _ (1 : Fin 3) * 1024 ≤ (i 1).val ∧ (i 1).val < win0_3.index _ (1 : Fin 3) * 1024 + 1024
    rw [e31]; omega
  | ⟨2, _⟩ =>
    show win0_3.index _ (2 : Fin 3) * 96 ≤ (i 2).val ∧ (i 2).val < win0_3.index _ (2 : Fin 3) * 96 + 96
    rw [e32]; omega

/-- THE ARRAY after the run is `arrFn` of the arrays as the region finds them. -/
theorem final (c : Dev nD) :
    (dats m 0 c).arrAt 3 cfg0.N = arrFn (V m c main_v0) (V m c main_arg1) (V m c main_arg2) :=
  (dats m 0 c).arrAt_eq_of_cover 3 _ (fun t _ => flushed_eq m c t) cover

/-- The array the region finds in the reshaped input's buffer is the host's reshape of the input. -/
theorem V_main_v0 (c : Dev nD) :
    (V m c main_v0 : S128x96x1024.Idx → EReal)
      = shapeCast S128x96x1024 (m ((c : Thread nD τ).loc main_arg0)) shapeCasts_S128x96x32x32_S128x96x1024 := by
  dsimp only [Gen.V, Gen.hostOps0]
  after_results
  rfl

/-- The reshaped input at `(b, c, s)` is the input at `(b, c, s / 32, s % 32)`. -/
theorem reshape_apply (x : Vec Ideal S128x96x32x32 .f32) (b : Fin 128) (ch : Fin 96) (s : Fin 1024) :
    shapeCast S128x96x1024 x shapeCasts_S128x96x32x32_S128x96x1024 (ix3 b ch s) = x (ix4 b ch (rowOf s) (colOf s)) :=
  shapeCast_apply x _ _ _ (by
    rw [Shape.rowMajor_val_four, Shape.rowMajor_val_three]
    show ((b.val * 96 + ch.val) * 32 + s.val / 32) * 32 + s.val % 32 = (b.val * 96 + ch.val) * 1024 + s.val
    omega)

/-- So the result array is the specification of the three arguments. -/
theorem final_spec (c : Dev nD) :
    (dats m 0 c).arrAt 3 cfg0.N
      = posEmbed (m ((c : Thread nD τ).loc main_arg0)) (m ((c : Thread nD τ).loc main_arg1)) (m ((c : Thread nD τ).loc main_arg2)) := by
  rw [final, V_main_v0, V_main_arg1, V_main_arg2]
  funext i
  unfold arrFn posEmbed posAt
  exact congrArg (· + _) (reshape_apply _ (i 0) (i 2) (i 1))

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v1)
        = posEmbed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_spec m c), (h c).2⟩) (Value.run_blocks m ρ)

end Cert.KernelIdeal.Hand

end
-- ==== Proof.RefRun.lean ====
/-
  The reference's run, read back.

  The reference is a straight line of host operations: two index vectors `arange(32)`, a table lookup
  `jnp.take(table, index, axis = 0)` of each of the two embedding tables (twenty-three operations each: the negative
  indices wrapped, the wrapped indices as a column, the in-range test reduced over the column, the gather of whole
  rows, and the select between the gathered rows and a not-a-number fill), the two looked-up tables broadcast to
  `[32, 32, 96]` and added, that sum moved to `[96, 32, 32]`, broadcast over the batch and added to the input, the
  result moved to channels-last and its two spatial axes folded. Listed in order, the function calls unfolded at
  their call sites, the program IS that list run in sequence; so every execution terminates and leaves each buffer
  at the fold of the operations over the launch contents.
-/
import proofs.«131013_g47768626266375_cont_8to1c4_508_8_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's 59 operations, in order, the two lookups unfolded into their calls' buffers. -/
abbrev ops : List (HloOp τ sig (Elt F)) :=
  [ nullary main_v0 (iotaInDim S32 32 0),
    nullary main_v1 (iotaInDim S32 32 0),
    TRef.nullary main_call0.c (constantI S_ 32 0#32),
    TRef.unary main_call0.c main_call0.v0 (broadcastInDim S32 ![] bcast_S_S32),
    TRef.binary (.of main_v0) main_call0.v0 main_call0.v1 (cmpi .slt),
    TRef.nullary main_call0.c_0 (constantI S_ 32 32#32),
    TRef.unary main_call0.c_0 main_call0.v2 (broadcastInDim S32 ![] bcast_S_S32),
    TRef.binary (.of main_v0) main_call0.v2 main_call0.v3 addi,
    TRef.ternary main_call0.v1 main_call0.v3 (.of main_v0) main_call0.call0.v0 select,
    TRef.unary main_call0.call0.v0 main_call0.v5 (broadcastInDim S32x1 ![0] bcast_S32_S32x1_0),
    TRef.nullary main_call0.c_1 (constantI S1 32 31#32),
    TRef.nullary main_call0.c_2 (constantI S_ 32 0#32),
    TRef.unary main_call0.c_2 main_call0.v6 (broadcastInDim S32x1 ![] bcast_S_S32x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S32x1 ![0, 1] bcast_S1x1_S32x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32x1_S32_d1 h_S_),
    TRef.binary (.of main_arg2) main_call0.v5 main_call0.v13 (fun x i => Host.gather gather_S32x96_S32x1_S32x96_1_0_n_n_0_1_196 x i),
    TRef.unary main_call0.v12 main_call0.v14 (broadcastInDim S32x96 ![0] bcast_S32_S32x96_0),
    TRef.nullary main_call0.cst (constant S_ .f32 0x7FC00000#32),
    TRef.unary main_call0.cst main_call0.v15 (broadcastInDim S32x96 ![] bcast_S_S32x96),
    TRef.ternary main_call0.v14 main_call0.v13 main_call0.v15 main_call0.v16 select,
    TRef.nullary main_call1.c (constantI S_ 32 0#32),
    TRef.unary main_call1.c main_call1.v0 (broadcastInDim S32 ![] bcast_S_S32),
    TRef.binary (.of main_v1) main_call1.v0 main_call1.v1 (cmpi .slt),
    TRef.nullary main_call1.c_0 (constantI S_ 32 32#32),
    TRef.unary main_call1.c_0 main_call1.v2 (broadcastInDim S32 ![] bcast_S_S32),
    TRef.binary (.of main_v1) main_call1.v2 main_call1.v3 addi,
    TRef.ternary main_call1.v1 main_call1.v3 (.of main_v1) main_call1.call0.v0 select,
    TRef.unary main_call1.call0.v0 main_call1.v5 (broadcastInDim S32x1 ![0] bcast_S32_S32x1_0),
    TRef.nullary main_call1.c_1 (constantI S1 32 31#32),
    TRef.nullary main_call1.c_2 (constantI S_ 32 0#32),
    TRef.unary main_call1.c_2 main_call1.v6 (broadcastInDim S32x1 ![] bcast_S_S32x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S32x1 ![0, 1] bcast_S1x1_S32x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32x1_S32_d1 h_S_),
    TRef.binary (.of main_arg1) main_call1.v5 main_call1.v13 (fun x i => Host.gather gather_S32x96_S32x1_S32x96_1_0_n_n_0_1_196 x i),
    TRef.unary main_call1.v12 main_call1.v14 (broadcastInDim S32x96 ![0] bcast_S32_S32x96_0),
    TRef.nullary main_call1.cst (constant S_ .f32 0x7FC00000#32),
    TRef.unary main_call1.cst main_call1.v15 (broadcastInDim S32x96 ![] bcast_S_S32x96),
    TRef.ternary main_call1.v14 main_call1.v13 main_call1.v15 main_call1.v16 select,
    unary main_v2 main_v4 (broadcastInDim S1x32x96 ![1, 2] bcast_S32x96_S1x32x96_1_2 : (⟨S32x96, .f32⟩ : BufTy).Contents (Elt F) → (⟨S1x32x96, .f32⟩ : BufTy).Contents (Elt F)),
    unary main_v4 main_v5 (broadcastInDim S32x32x96 ![0, 1, 2] bcast_S1x32x96_S32x32x96_0_1_2 : (⟨S1x32x96, .f32⟩ : BufTy).Contents (Elt F) → (⟨S32x32x96, .f32⟩ : BufTy).Contents (Elt F)),
    unary main_v3 main_v6 (broadcastInDim S32x1x96 ![0, 2] bcast_S32x96_S32x1x96_0_2 : (⟨S32x96, .f32⟩ : BufTy).Contents (Elt F) → (⟨S32x1x96, .f32⟩ : BufTy).Contents (Elt F)),
    unary main_v6 main_v7 (broadcastInDim S32x32x96 ![0, 1, 2] bcast_S32x1x96_S32x32x96_0_1_2 : (⟨S32x1x96, .f32⟩ : BufTy).Contents (Elt F) → (⟨S32x32x96, .f32⟩ : BufTy).Contents (Elt F)),
    binary main_v5 main_v7 main_v8 (addf : (⟨S32x32x96, .f32⟩ : BufTy).Contents (Elt F) → (⟨S32x32x96, .f32⟩ : BufTy).Contents (Elt F) → (⟨S32x32x96, .f32⟩ : BufTy).Contents (Elt F)),
    unary main_v8 main_v9 ((transpose S96x32x32 [2, 0, 1] · transposes_S32x32x96_S96x32x32_2_0_1) : (⟨S32x32x96, .f32⟩ : BufTy).Contents (Elt F) → (⟨S96x32x32, .f32⟩ : BufTy).Contents (Elt F)),
    unary main_v9 main_v10 (broadcastInDim S1x96x32x32 ![1, 2, 3] bcast_S96x32x32_S1x96x32x32_1_2_3 : (⟨S96x32x32, .f32⟩ : BufTy).Contents (Elt F) → (⟨S1x96x32x32, .f32⟩ : BufTy).Contents (Elt F)),
    unary main_v10 main_v11 (broadcastInDim S128x96x32x32 ![0, 1, 2, 3] bcast_S1x96x32x32_S128x96x32x32_0_1_2_3 : (⟨S1x96x32x32, .f32⟩ : BufTy).Contents (Elt F) → (⟨S128x96x32x32, .f32⟩ : BufTy).Contents (Elt F)),
    binary main_arg0 main_v11 main_v12 (addf : (⟨S128x96x32x32, .f32⟩ : BufTy).Contents (Elt F) → (⟨S128x96x32x32, .f32⟩ : BufTy).Contents (Elt F) → (⟨S128x96x32x32, .f32⟩ : BufTy).Contents (Elt F)),
    unary main_v12 main_v13 ((transpose S128x32x32x96 [0, 2, 3, 1] · transposes_S128x96x32x32_S128x32x32x96_0_2_3_1) : (⟨S128x96x32x32, .f32⟩ : BufTy).Contents (Elt F) → (⟨S128x32x32x96, .f32⟩ : BufTy).Contents (Elt F)),
    reshape main_v13 main_v14 rfl shapeCasts_S128x32x32x96_S128x1024x96 ]

set_option maxRecDepth 4096 in
/-- The program is that list run in sequence: the lookups' definitions unfolded at their calls, and sequencing
    reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., unary_bufs_sub .., binary_bufs_sub .., unary_bufs_sub .., unary_bufs_sub .., unary_bufs_sub .., binary_bufs_sub .., unary_bufs_sub .., reshape_bufs_sub ..⟩

/-- From any memory with zero counters every weakly fair execution of the reference terminates, and leaves each
    TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.LibGatherRows.lean ====
/-
  A general lemma: `stablehlo.gather` of WHOLE ROWS of a rank-2 operand, read at an index.

  What `jnp.take(x, idx, axis = 0)` of a table `x : [N, C]` at an integer vector `idx : [R]` lowers to: a gather with
  offset_dims `[1]`, collapsed_slice_dims `[0]`, start_index_map `[0]`, index_vector_dim `1` and slice sizes `[1, C]`
  over the indices as a column `[R, 1]`. Result element `(t, d)` is `x` at row `idx[t, 0]` — read as a signed integer
  and clamped into `[0, N − 1]`, as the gather clamps every start index — and column `d`: on the operand's row axis
  the clamped start index alone (that axis is collapsed: no offset), on its column axis the result's own column
  coordinate alone (that axis is not in the start index map: start `0`).
-/
import Idealize.ShloMosaic.PureOps
import Idealize.ShloMosaic.Lib.ValueIdx

noncomputable section

namespace Cert.Lib.GatherRows

open Idealize.ShloMosaic Idealize.ShloMosaic.ValueIdx

variable {α : Type}

/-- Those dimension numbers for an operand `[N, C]`, start indices `[R, 1]` and result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(t, d)`: the operand at row `r`, the start index `idx[t, 0]` read signed and clamped into
    `[0, N − 1]`, and column `d`. The row is a variable with its defining equation, so that a user substitutes the
    row it has computed without rewriting under an index's bound proof. -/
theorem gather_rows_apply {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (d : Fin C) (r : Fin N)
    (hr : r.val = min (idx (ix2 t (0 : Fin 1))).toInt.toNat (N - 1)) :
    Host.gather (rowDims N C R wf) x idx (ix2 t d) = x (ix2 r d) := by
  unfold Host.gather
  refine congrArg x (funext fun a => Fin.ext ?_)
  match a with
  | ⟨0, _⟩ =>
    show (rowDims N C R wf).start (ix2 t d) idx 0 + (rowDims N C R wf).batchCoord (ix2 t d) 0
      + (rowDims N C R wf).offCoord (ix2 t d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 t d) ⟨List.idxOf (0 : Fin 2) (rowDims N C R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi, hr]
    rfl
  | ⟨1, _⟩ =>
    show (rowDims N C R wf).start (ix2 t d) idx 1 + (rowDims N C R wf).batchCoord (ix2 t d) 1
      + (rowDims N C R wf).offCoord (ix2 t d) 1 = d.val
    rw [GatherDims.batchCoord_eq_zero _ _ _ List.not_mem_nil]
    unfold GatherDims.start
    have h10 : (1 : Fin 2) ∉ ([0] : List (Fin 2)) := by decide
    rw [dif_neg (show (1 : Fin 2) ∉ (rowDims N C R wf).startIndexMap from h10)]
    unfold GatherDims.offCoord
    rw [dif_pos ((GatherDims.mem_sKept _ _).mpr ⟨(show (1 : Fin 2) ∉ (rowDims N C R wf).collapsedSliceDims from h10), List.not_mem_nil⟩)]
    simp only [Nat.add_zero, Nat.zero_add]
    rfl

end Cert.Lib.GatherRows

end
-- ==== Proof.RefValue.lean ====
/-
  The reference's result as one term of its three arguments, and that term read at an index.

  `jnp.take(table, arange(32), axis = 0)` wraps negative indices, tests the wrapped indices against `[0, 31]`, gathers
  the indexed rows and keeps a gathered row where its index is in range (a not-a-number row elsewhere). The indices
  are `0 … 31`: none is negative, all are in range, and row `t` of the gather is row `t` of the table — the lookup is the
  identity. What is left is `x (b, c, h, w) + (col (w, c) + row (h, c))` moved to channels-last with `(h, w)` folded to
  `s = h · 32 + w`.
-/
import proofs.«131013_g47768626266375_cont_8to1c4_508_8_alg».proof.Proof.RefRun
import proofs.«131013_g47768626266375_cont_8to1c4_508_8_alg».proof.Proof.LibGatherRows
import proofs.«131013_g47768626266375_cont_8to1c4_508_8_alg».proof.Proof.Spec
import Idealize.ShloMosaic.Lib.Pipeline.Value
import Idealize.ShloMosaic.Lib.ValueIdx
import Idealize.ShloMosaic.Lib.ValueLayout

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

variable {F : FTy → Type} [FloatOps F]

/-! ## The result term -/

/-- The indices with the negative ones wrapped by the table's height. -/
def wrapIdx (idx : IVec S32 32) : IVec S32 32 :=
  select (cmpi .slt idx (broadcastInDim S32 ![] bcast_S_S32 (constantI S_ 32 0#32)))
    (addi idx (broadcastInDim S32 ![] bcast_S_S32 (constantI S_ 32 32#32))) idx

/-- The wrapped indices as a column. -/
def idxCol (idx : IVec S32 32) : IVec S32x1 32 := broadcastInDim S32x1 ![0] bcast_S32_S32x1_0 (wrapIdx idx)

/-- Which rows have their index inside `[0, 31]`. -/
def inRange (idx : IVec S32 32) : IVec S32 1 :=
  Host.reduce IntOp.andi
    (andi (cmpi .sge (idxCol idx) (broadcastInDim S32x1 ![] bcast_S_S32x1 (constantI S_ 32 0#32)))
      (cmpi .sle (idxCol idx) (broadcastInDim S32x1 ![0, 1] bcast_S1x1_S32x1_0_1
        (broadcastInDim S1x1 ![1] bcast_S1_S1x1_1 (constantI S1 32 31#32)))))
    (constantI S_ 1 1#1) reducesTo_S32x1_S32_d1 h_S_

/-- The lookup `jnp.take(table, idx, axis = 0)`. -/
def take (tbl : FVec F S32x96 .f32) (idx : IVec S32 32) : FVec F S32x96 .f32 :=
  select (broadcastInDim S32x96 ![0] bcast_S32_S32x96_0 (inRange idx))
    (Host.gather gather_S32x96_S32x1_S32x96_1_0_n_n_0_1_196 tbl (idxCol idx))
    (broadcastInDim S32x96 ![] bcast_S_S32x96 (constant S_ .f32 0x7FC00000#32))

/-- The position embedding `[96, 32, 32]` from the two looked-up tables. -/
def posTable (colT rowT : FVec F S32x96 .f32) : FVec F S96x32x32 .f32 :=
  transpose S96x32x32 [2, 0, 1]
    (addf (broadcastInDim S32x32x96 ![0, 1, 2] bcast_S1x32x96_S32x32x96_0_1_2 (broadcastInDim S1x32x96 ![1, 2] bcast_S32x96_S1x32x96_1_2 colT))
      (broadcastInDim S32x32x96 ![0, 1, 2] bcast_S32x1x96_S32x32x96_0_1_2 (broadcastInDim S32x1x96 ![0, 2] bcast_S32x96_S32x1x96_0_2 rowT)))
    transposes_S32x32x96_S96x32x32_2_0_1

/-- The reference's result from the input and a position embedding. -/
def addPos (x : FVec F S128x96x32x32 .f32) (p : FVec F S96x32x32 .f32) : FVec F S128x1024x96 .f32 :=
  shapeCast S128x1024x96
    (transpose S128x32x32x96 [0, 2, 3, 1]
      (addf x (broadcastInDim S128x96x32x32 ![0, 1, 2, 3] bcast_S1x96x32x32_S128x96x32x32_0_1_2_3
        (broadcastInDim S1x96x32x32 ![1, 2, 3] bcast_S96x32x32_S1x96x32x32_1_2_3 p)))
      transposes_S128x96x32x32_S128x32x32x96_0_2_3_1)
    shapeCasts_S128x32x32x96_S128x1024x96

/-- The reference's result as one term of its arguments. -/
def refOut (x : FVec F S128x96x32x32 .f32) (row col : FVec F S32x96 .f32) : FVec F S128x1024x96 .f32 :=
  addPos x (posTable (take col (iotaInDim S32 32 0)) (take row (iotaInDim S32 32 0)))

/-- The operations' fold at the result buffer is that term of the arguments' contents. -/
theorem out_eq (V : Valuation τ sig (Elt F)) :
    after ops V (main_v14 : DevRef τ sig)
      = refOut (V (main_arg0 : DevRef τ sig)) (V (main_arg1 : DevRef τ sig)) (V (main_arg2 : DevRef τ sig)) := by
  after_results_simp
  simp only [TRef.toBuf, TRef.ofBuf, cast_eq]
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- The run, read: the result buffer at `refOut` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v14).trans (out_eq _), (h c main_arg0).trans (arg0_eq _),
      (h c main_arg1).trans (arg1_eq _), (h c main_arg2).trans (arg2_eq _)⟩)
    (run_all m ρ)

end Cert.ReferenceIdeal.Hand

end
-- ==== Proof.RefSpec.lean ====
/-
  The reference's result term, read at an index, is the specification.

  The lookup at the indices `0 … 31` is the identity: index `t` is not negative, so it is not wrapped; it lies in
  `[0, 31]`, so its row is kept; and the gather's row for it is row `t`. The position embedding at `(c, h, w)` is then
  `col (w, c) + row (h, c)`, and the result at `(b, s, c)` is `x (b, c, s / 32, s % 32)` plus the embedding at
  `(c, s / 32, s % 32)`: the specification, the two embedding terms in the other order (addition of extended reals is
  commutative).
-/
import proofs.«131013_g47768626266375_cont_8to1c4_508_8_alg».proof.Proof.RefValue
import Idealize.ShloMosaic.PureOps.Reduce

noncomputable section

namespace Cert.ReferenceIdeal.Hand

open Cert.ReferenceIdeal Cert.ReferenceIdeal.Gen Idealize.ShloMosaic
open Idealize.ShloMosaic.ValueIdx Cert.Spec

/-! ## The lookup at `arange(32)` -/

/-- The three integer facts about an index `t < 32` as a 32-bit word: it is not wrapped, it is in range, and read
    signed and clamped into `[0, 31]` it is `t`. -/
theorem word_facts : ∀ t : Fin 32,
    Scalar.select (IntOp.cmpi .slt (BitVec.ofNat 32 t.val) 0#32) (IntOp.addi (BitVec.ofNat 32 t.val) 32#32) (BitVec.ofNat 32 t.val)
      = BitVec.ofNat 32 t.val
    ∧ IntOp.andi (IntOp.cmpi .sge (BitVec.ofNat 32 t.val) 0#32) (IntOp.cmpi .sle (BitVec.ofNat 32 t.val) 31#32) = 1#1
    ∧ min (BitVec.ofNat 32 t.val).toInt.toNat 31 = t.val := by decide

theorem wrapIdx_iota (t : Fin 32) : wrapIdx (iotaInDim S32 32 0) (ix1 t) = BitVec.ofNat 32 t.val :=
  (word_facts t).1

theorem idxCol_iota (t : Fin 32) (z : Fin 1) : idxCol (iotaInDim S32 32 0) (ix2 t z) = BitVec.ofNat 32 t.val := by
  unfold idxCol
  exact (broadcastInDim_apply _ bcast_S32_S32x1_0 _ (ix2 t z) (ix1 t) (fun a => match a with | ⟨0, _⟩ => rfl)).trans
    (wrapIdx_iota t)

/-- A left fold by `and` from `1` over words that are all `1` is `1`. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a]
    exact foldl_andi_ones x hx l

theorem inRange_iota (t : Fin 32) : inRange (iotaInDim S32 32 0) (ix1 t) = 1#1 := by
  unfold inRange
  rw [Host.reduce_eq_foldl]
  refine foldl_andi_ones _ (fun i => ?_) _
  obtain ⟨a, z, rfl⟩ : ∃ (a : Fin 32) (z : Fin 1), i = ix2 a z := ⟨i 0, i 1, eq_ix2 i⟩
  show IntOp.andi (IntOp.cmpi .sge (idxCol (iotaInDim S32 32 0) (ix2 a z)) 0#32)
    (IntOp.cmpi .sle (idxCol (iotaInDim S32 32 0) (ix2 a z)) 31#32) = 1#1
  rw [idxCol_iota]
  exact (word_facts a).2.1

/-- THE LOOKUP at the indices `0 … 31` is the table. -/
theorem take_iota_apply {F : FTy → Type} [FloatOps F] (tbl : FVec F S32x96 .f32) (t : Fin 32) (d : Fin 96) :
    take tbl (iotaInDim S32 32 0) (ix2 t d) = tbl (ix2 t d) := by
  unfold take
  rw [select_apply]
  have hm : broadcastInDim S32x96 ![0] bcast_S32_S32x96_0 (inRange (iotaInDim S32 32 0)) (ix2 t d) = 1#1 :=
    (broadcastInDim_apply _ bcast_S32_S32x96_0 _ (ix2 t d) (ix1 t) (fun a => match a with | ⟨0, _⟩ => rfl)).trans
      (inRange_iota t)
  rw [hm, select_one]
  exact Cert.Lib.GatherRows.gather_rows_apply gather_S32x96_S32x1_S32x96_1_0_n_n_0_1_196_wf tbl
    (idxCol (iotaInDim S32 32 0)) t d t (by rw [idxCol_iota]; exact (word_facts t).2.2.symm)

/-! ## The layout operations around it -/

/-- The position embedding at channel `ch`, row `h`, column `w`. -/
theorem posTable_apply (colT rowT : FVec Ideal S32x96 .f32) (ch : Fin 96) (h w : Fin 32) :
    posTable colT rowT (ix3 ch h w) = colT (ix2 w ch) + rowT (ix2 h ch) := by
  unfold posTable
  refine (transpose_apply _ _ transposes_S32x32x96_S96x32x32_2_0_1 (ix3 ch h w) (ix3 h w ch)
    (fun b => match b with | ⟨0, _⟩ => rfl | ⟨1, _⟩ => rfl | ⟨2, _⟩ => rfl)).trans ?_
  rw [addf_apply]
  congr 1
  · refine (broadcastInDim_apply _ bcast_S1x32x96_S32x32x96_0_1_2 _ (ix3 h w ch) (ix3 (0 : Fin 1) w ch)
      (fun a => match a with | ⟨0, _⟩ => rfl | ⟨1, _⟩ => rfl | ⟨2, _⟩ => rfl)).trans ?_
    exact broadcastInDim_apply _ bcast_S32x96_S1x32x96_1_2 _ (ix3 (0 : Fin 1) w ch) (ix2 w ch)
      (fun a => match a with | ⟨0, _⟩ => rfl | ⟨1, _⟩ => rfl)
  · refine (broadcastInDim_apply _ bcast_S32x1x96_S32x32x96_0_1_2 _ (ix3 h w ch) (ix3 h (0 : Fin 1) ch)
      (fun a => match a with | ⟨0, _⟩ => rfl | ⟨1, _⟩ => rfl | ⟨2, _⟩ => rfl)).trans ?_
    exact broadcastInDim_apply _ bcast_S32x96_S32x1x96_0_2 _ (ix3 h (0 : Fin 1) ch) (ix2 h ch)
      (fun a => match a with | ⟨0, _⟩ => rfl | ⟨1, _⟩ => rfl)

/-- The result at batch element `b`, position `s`, channel `ch`, from the input and a position embedding. -/
theorem addPos_apply (x : FVec Ideal S128x96x32x32 .f32) (p : FVec Ideal S96x32x32 .f32) (b : Fin 128) (s : Fin 1024) (ch : Fin 96) :
    addPos x p (ix3 b s ch) = x (ix4 b ch (rowOf s) (colOf s)) + p (ix3 ch (rowOf s) (colOf s)) := by
  unfold addPos
  refine (shapeCast_apply _ shapeCasts_S128x32x32x96_S128x1024x96 (ix3 b s ch) (ix4 b (rowOf s) (colOf s) ch) (by
    rw [Shape.rowMajor_val_four, Shape.rowMajor_val_three]
    show ((b.val * 32 + s.val / 32) * 32 + s.val % 32) * 96 + ch.val = (b.val * 1024 + s.val) * 96 + ch.val
    omega)).trans ?_
  refine (transpose_apply _ _ transposes_S128x96x32x32_S128x32x32x96_0_2_3_1 (ix4 b (rowOf s) (colOf s) ch)
    (ix4 b ch (rowOf s) (colOf s))
    (fun a => match a with | ⟨0, _⟩ => rfl | ⟨1, _⟩ => rfl | ⟨2, _⟩ => rfl | ⟨3, _⟩ => rfl)).trans ?_
  rw [addf_apply]
  congr 1
  refine (broadcastInDim_apply _ bcast_S1x96x32x32_S128x96x32x32_0_1_2_3 _ (ix4 b ch (rowOf s) (colOf s))
    (ix4 (0 : Fin 1) ch (rowOf s) (colOf s))
    (fun a => match a with | ⟨0, _⟩ => rfl | ⟨1, _⟩ => rfl | ⟨2, _⟩ => rfl | ⟨3, _⟩ => rfl)).trans ?_
  exact broadcastInDim_apply _ bcast_S96x32x32_S1x96x32x32_1_2_3 _ (ix4 (0 : Fin 1) ch (rowOf s) (colOf s))
    (ix3 ch (rowOf s) (colOf s)) (fun a => match a with | ⟨0, _⟩ => rfl | ⟨1, _⟩ => rfl | ⟨2, _⟩ => rfl)

/-! ## The reference is the specification -/

theorem refOut_eq (x : FVec Ideal S128x96x32x32 .f32) (row col : FVec Ideal S32x96 .f32) :
    refOut x row col = posEmbed x row col := by
  funext i
  obtain ⟨b, s, ch, rfl⟩ : ∃ (b : Fin 128) (s : Fin 1024) (ch : Fin 96), i = ix3 b s ch := ⟨i 0, i 1, i 2, eq_ix3 i⟩
  unfold refOut
  rw [addPos_apply, posTable_apply, take_iota_apply, take_iota_apply]
  show _ = x (ix4 b ch (rowOf s) (colOf s)) + (row (ix2 (rowOf s) ch) + col (ix2 (colOf s) ch))
  rw [add_comm (col _) (row _)]

end Cert.ReferenceIdeal.Hand

end
-- ==== Proof.lean ====
/-
  A learned two-dimensional position embedding added to an image batch, channels moved last:
  `out (b, h · 32 + w, c) = x (b, c, h, w) + row (h, c) + col (w, c)`.

  The kernel transposes each batch element's `[96, 1024]` slab (channels by positions) by multiplying it, contracted on
  the channel axis, with a `96 × 96` identity matrix, and adds a position table built once from the two embedding
  tables; the reference looks the two tables up at `arange(32)`, adds them broadcast over the grid, adds that to the
  input and transposes. Over the extended reals the two agree index by index:
  * a product with the identity matrix is a transposition — `∑ k, x (k, s) · [k = c] = x (c, s)`, every other summand
    `x (k, s) · 0 = 0` whatever `x (k, s)` is, so no finiteness of the input is used;
  * the lookup at the indices `0 … 31` is the identity (none is negative, all are in range, the gather's row `t` is
    row `t`);
  * the rest is layout (reshapes, broadcasts, transposes) read at an index, and one use of commutativity of addition:
    the kernel adds `row + col`, the reference `col + row`.
  Both runs end at `Spec.posEmbed` of the arguments (Proof/KernelArray.lean for the kernel, Proof/RefValue.lean and
  Proof/RefSpec.lean for the reference). The three frames are the generated frame of each kernel program and the
  reference's run with its result dropped; nothing was rewritten between the kernel and its idealization.
-/
import proofs.«131013_g47768626266375_cont_8to1c4_508_8_alg».proof.Defs
import proofs.«131013_g47768626266375_cont_8to1c4_508_8_alg».proof.Proof.Gen.Kernel
import proofs.«131013_g47768626266375_cont_8to1c4_508_8_alg».proof.Proof.Gen.Kernel.Frame
import proofs.«131013_g47768626266375_cont_8to1c4_508_8_alg».proof.Proof.Gen.KernelIdeal
import proofs.«131013_g47768626266375_cont_8to1c4_508_8_alg».proof.Proof.Gen.KernelIdeal.Frame
import proofs.«131013_g47768626266375_cont_8to1c4_508_8_alg».proof.Proof.Gen.ReferenceIdeal
import proofs.«131013_g47768626266375_cont_8to1c4_508_8_alg».proof.Proof.Gen.Pre_finite_inputs
import proofs.«131013_g47768626266375_cont_8to1c4_508_8_alg».proof.Proof.KernelArray
import proofs.«131013_g47768626266375_cont_8to1c4_508_8_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- Over the extended reals both programs end with the specification of their (agreeing) arguments in the result. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.Hand.refOut_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
